-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x3x224x224 : Shape := ⟨4, ![128, 3, 224, 224]⟩
abbrev S768x768 : Shape := ⟨2, ![768, 768]⟩
abbrev S768 : Shape := ⟨1, ![768]⟩
abbrev S1x768 : Shape := ⟨2, ![1, 768]⟩
abbrev S197x768 : Shape := ⟨2, ![197, 768]⟩
abbrev S_ : Shape := ⟨0, ![]⟩

class Facts : Prop where
  bcast_S_S128x3x224x224 : S_.BroadcastsInDim S128x3x224x224 (![] : Fin 0 → Fin S128x3x224x224.rank)
  reducesTo_S128x3x224x224_S_d0_1_2_3 : S128x3x224x224.ReducesTo [0, 1, 2, 3] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S1x768 : S_.BroadcastsInDim S1x768 (![] : Fin 0 → Fin S1x768.rank)
  reducesTo_S1x768_S_d0_1 : S1x768.ReducesTo [0, 1] S_
  bcast_S_S197x768 : S_.BroadcastsInDim S197x768 (![] : Fin 0 → Fin S197x768.rank)
  reducesTo_S197x768_S_d0_1 : S197x768.ReducesTo [0, 1] S_

variable [Facts]

def fn_part1 {F : FTy → Type} [FloatOps F] (main_arg4 : FVec F S197x768 .f32) (main_v13 : IVec S_ 1) (main_v16 : IVec S1x768 1) : IVec S_ 1 :=
  let main_c_5 : IVec S_ 1 := constantI S_ 1 1#1
  let main_v17 : IVec S_ 1 := (fun x v => Host.reduce IntOp.andi x v reducesTo_S1x768_S_d0_1 h_S_) main_v16 main_c_5
  let main_v18 : IVec S_ 1 := andi main_v13 main_v17
  let main_v19 : FVec F S197x768 .f32 := Host.absf main_arg4
  let main_cst_6 : FVec F S_ .f32 := constant S_ .f32 0x7F800000#32
  let main_v20 : FVec F S197x768 .f32 := broadcastInDim S197x768 ![] bcast_S_S197x768 main_cst_6
  let main_v21 : IVec S197x768 1 := cmpf .olt main_v19 main_v20
  let main_c_7 : IVec S_ 1 := constantI S_ 1 1#1
  let main_v22 : IVec S_ 1 := (fun x v => Host.reduce IntOp.andi x v reducesTo_S197x768_S_d0_1 h_S_) main_v21 main_c_7
  let main_v23 : IVec S_ 1 := andi main_v18 main_v22
  main_v23

def fn {F : FTy → Type} [FloatOps F] (main_arg0 : FVec F S128x3x224x224 .f32) (main_arg1 : FVec F S768x768 .f32) (main_arg2 : FVec F S768 .f32) (main_arg3 : FVec F S1x768 .f32) (main_arg4 : FVec F S197x768 .f32) : IVec S_ 1 :=
  let main_v0 : FVec F S128x3x224x224 .f32 := Host.absf main_arg0
  let main_cst : FVec F S_ .f32 := constant S_ .f32 0x7F800000#32
  let main_v1 : FVec F S128x3x224x224 .f32 := broadcastInDim S128x3x224x224 ![] bcast_S_S128x3x224x224 main_cst
  let main_v2 : IVec S128x3x224x224 1 := cmpf .olt main_v0 main_v1
  let main_c : IVec S_ 1 := constantI S_ 1 1#1
  let main_v3 : IVec S_ 1 := (fun x v => Host.reduce IntOp.andi x v reducesTo_S128x3x224x224_S_d0_1_2_3 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S1x768 .f32 := Host.absf main_arg3
  let main_cst_4 : FVec F S_ .f32 := constant S_ .f32 0x7F800000#32
  let main_v15 : FVec F S1x768 .f32 := broadcastInDim S1x768 ![] bcast_S_S1x768 main_cst_4
  let main_v16 : IVec S1x768 1 := cmpf .olt main_v14 main_v15
  fn_part1 (F := F) main_arg4 main_v13 main_v16
-- ==== Kernel.lean ====
abbrev S128x3x224x224 : Shape := ⟨4, ![128, 3, 224, 224]⟩
abbrev S768x768 : Shape := ⟨2, ![768, 768]⟩
abbrev S768 : Shape := ⟨1, ![768]⟩
abbrev S1x768 : Shape := ⟨2, ![1, 768]⟩
abbrev S197x768 : Shape := ⟨2, ![197, 768]⟩
abbrev S128x3x14x16x14x16 : Shape := ⟨6, ![128, 3, 14, 16, 14, 16]⟩
abbrev S128x14x14x3x16x16 : Shape := ⟨6, ![128, 14, 14, 3, 16, 16]⟩
abbrev S128x196x768 : Shape := ⟨3, ![128, 196, 768]⟩
abbrev S196x768 : Shape := ⟨2, ![196, 768]⟩
abbrev S1x196x768 : Shape := ⟨3, ![1, 196, 768]⟩
abbrev S1x1x768 : Shape := ⟨3, ![1, 1, 768]⟩
abbrev S128x1x768 : Shape := ⟨3, ![128, 1, 768]⟩
abbrev S128x197x768 : Shape := ⟨3, ![128, 197, 768]⟩

abbrev nBuf : Space → Nat
  | .hbm => 17
  | .vmem => 7
  | .smem => 0
  | _ => 0

abbrev bufTy : (tb : Table) → Fin (tcTables nBuf tb) → BufTy
  | .hbm, ⟨0, _⟩ => ⟨S128x3x224x224, .f32⟩
  | .hbm, ⟨1, _⟩ => ⟨S768x768, .f32⟩
  | .hbm, ⟨2, _⟩ => ⟨S768, .f32⟩
  | .hbm, ⟨3, _⟩ => ⟨S1x768, .f32⟩
  | .hbm, ⟨4, _⟩ => ⟨S197x768, .f32⟩
  | .hbm, ⟨5, _⟩ => ⟨S128x3x14x16x14x16, .f32⟩
  | .hbm, ⟨6, _⟩ => ⟨S128x14x14x3x16x16, .f32⟩
  | .hbm, ⟨7, _⟩ => ⟨S128x196x768, .f32⟩
  | .hbm, ⟨8, _⟩ => ⟨S768x768, .f32⟩
  | .hbm, ⟨9, _⟩ => ⟨S1x768, .f32⟩
  | .hbm, ⟨10, _⟩ => ⟨S196x768, .f32⟩
  | .hbm, ⟨11, _⟩ => ⟨S1x768, .f32⟩
  | .hbm, ⟨12, _⟩ => ⟨S128x196x768, .f32⟩
  | .hbm, ⟨13, _⟩ => ⟨S1x768, .f32⟩
  | .hbm, ⟨14, _⟩ => ⟨S1x1x768, .f32⟩
  | .hbm, ⟨15, _⟩ => ⟨S128x1x768, .f32⟩
  | .hbm, ⟨16, _⟩ => ⟨S128x197x768, .f32⟩
  | .local _ .vmem, ⟨0, _⟩ => ⟨S1x196x768, .f32⟩
  | .local _ .vmem, ⟨1, _⟩ => ⟨S1x196x768, .f32⟩
  | .local _ .vmem, ⟨2, _⟩ => ⟨S768x768, .f32⟩
  | .local _ .vmem, ⟨3, _⟩ => ⟨S1x768, .f32⟩
  | .local _ .vmem, ⟨4, _⟩ => ⟨S196x768, .f32⟩
  | .local _ .vmem, ⟨5, _⟩ => ⟨S1x196x768, .f32⟩
  | .local _ .vmem, ⟨6, _⟩ => ⟨S1x196x768, .f32⟩
  | _, _ => ⟨S128x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x196x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S196x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x196x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128x3x224x224_S128x3x14x16x14x16 : S128x3x224x224.ShapeCasts S128x3x14x16x14x16
  transposes_S128x3x14x16x14x16_S128x14x14x3x16x16_0_2_4_1_3_5 : S128x3x14x16x14x16.Transposes [0, 2, 4, 1, 3, 5] S128x14x14x3x16x16
  shapeCasts_S128x14x14x3x16x16_S128x196x768 : S128x14x14x3x16x16.ShapeCasts S128x196x768
  transposes_S768x768_S768x768_1_0 : S768x768.Transposes [1, 0] S768x768
  shapeCasts_S768_S1x768 : S768.ShapeCasts S1x768
  slices_S197x768_S196x768_1_0 : S197x768.Slices ![1, 0] S196x768
  slices_S197x768_S1x768_0_0 : S197x768.Slices ![0, 0] S1x768
  inb_S1x196x768_S1x196x768_0_0_0 : ∀ a, (![0, 0, 0] : Fin 3 → Nat) a + S1x196x768.size a ≤ S1x196x768.size a
  h_S1x196x768 : 0 < S1x196x768.numel
  shapeCasts_S1x196x768_S196x768 : S1x196x768.ShapeCasts S196x768
  bitsLt_bf16_f32 : FTy.bits .bf16 < FTy.bits .f32
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S196x768 : S1x768.Broadcasts S196x768
  inb_S196x768_S196x768_0_0 : ∀ a, (![0, 0] : Fin 2 → Nat) a + S196x768.size a ≤ S196x768.size a
  h_S196x768 : 0 < S196x768.numel
  shapeCasts_S196x768_S196x768 : S196x768.ShapeCasts S196x768
  shapeCasts_S196x768_S1x196x768 : S196x768.ShapeCasts S1x196x768
  bcast_S1x768_S1x1x768_1_2 : S1x768.BroadcastsInDim S1x1x768 (![1, 2] : Fin 2 → Fin S1x1x768.rank)
  bcast_S1x1x768_S128x1x768_0_1_2 : S1x1x768.BroadcastsInDim S128x1x768 (![0, 1, 2] : Fin 3 → Fin S128x1x768.rank)
  concatenates_S128x1x768_S128x196x768_S128x197x768_d1 : Shape.Concatenates [S128x1x768, S128x196x768] S128x197x768 1
  dot_S196x768_S768x768_S196x768_1_0_0_1_n_n_wf : DotDims.WF S196x768 S768x768 S196x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x196x768.size a ≤ S128x196x768.size a
  hwx0_0 : ∀ i : grid0.Coords, EltTy.bits .f32 = 32 ∨ (Rect.block (s := S128x196x768) S1x196x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .f32 = 32 ∨ (Rect.block (s := S768x768) S768x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S196x768.size a ≤ S196x768.size a
  hwx0_3 : ∀ i : grid0.Coords, EltTy.bits .f32 = 32 ∨ (Rect.block (s := S196x768) S196x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x196x768.size a ≤ S128x196x768.size a
  hwx0_4 : ∀ i : grid0.Coords, EltTy.bits .f32 = 32 ∨ (Rect.block (s := S128x196x768) S1x196x768.size (cc0_transform_4 i) (hinb0_4 i)).WholeWords (EltTy.packing .f32)

variable [Facts₀]

def dot_S196x768_S768x768_S196x768_1_0_0_1_n_n : DotDims S196x768 S768x768 S196x768 where
  lhsContracting := [1]
  rhsContracting := [0]
  lhsNonContracting := [0]
  rhsNonContracting := [1]
  lhsBatch := []
  rhsBatch := []
  wf := dot_S196x768_S768x768_S196x768_1_0_0_1_n_n_wf

abbrev win0_0 : Pipeline.Window sig grid0 :=
  Pipeline.Window.ofSpec (Memref.whole main_v2) S1x196x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S196x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x196x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S128x3x224x224 : Shape := ⟨4, ![128, 3, 224, 224]⟩
abbrev S768x768 : Shape := ⟨2, ![768, 768]⟩
abbrev S768 : Shape := ⟨1, ![768]⟩
abbrev S1x768 : Shape := ⟨2, ![1, 768]⟩
abbrev S197x768 : Shape := ⟨2, ![197, 768]⟩
abbrev S128x3x14x16x14x16 : Shape := ⟨6, ![128, 3, 14, 16, 14, 16]⟩
abbrev S128x14x14x3x16x16 : Shape := ⟨6, ![128, 14, 14, 3, 16, 16]⟩
abbrev S128x196x768 : Shape := ⟨3, ![128, 196, 768]⟩
abbrev S1x1x768 : Shape := ⟨3, ![1, 1, 768]⟩
abbrev S128x1x768 : Shape := ⟨3, ![128, 1, 768]⟩
abbrev S128x197x768 : Shape := ⟨3, ![128, 197, 768]⟩
abbrev S1x197x768 : Shape := ⟨3, ![1, 197, 768]⟩

abbrev nBuf : Space → Nat
  | .hbm => 18
  | .vmem => 0
  | .smem => 0
  | _ => 0

abbrev bufTy : (tb : Table) → Fin (tcTables nBuf tb) → BufTy
  | .hbm, ⟨0, _⟩ => ⟨S128x3x224x224, .f32⟩
  | .hbm, ⟨1, _⟩ => ⟨S768x768, .f32⟩
  | .hbm, ⟨2, _⟩ => ⟨S768, .f32⟩
  | .hbm, ⟨3, _⟩ => ⟨S1x768, .f32⟩
  | .hbm, ⟨4, _⟩ => ⟨S197x768, .f32⟩
  | .hbm, ⟨5, _⟩ => ⟨S128x3x14x16x14x16, .f32⟩
  | .hbm, ⟨6, _⟩ => ⟨S128x14x14x3x16x16, .f32⟩
  | .hbm, ⟨7, _⟩ => ⟨S128x196x768, .f32⟩
  | .hbm, ⟨8, _⟩ => ⟨S128x196x768, .f32⟩
  | .hbm, ⟨9, _⟩ => ⟨S1x1x768, .f32⟩
  | .hbm, ⟨10, _⟩ => ⟨S128x196x768, .f32⟩
  | .hbm, ⟨11, _⟩ => ⟨S128x196x768, .f32⟩
  | .hbm, ⟨12, _⟩ => ⟨S1x1x768, .f32⟩
  | .hbm, ⟨13, _⟩ => ⟨S128x1x768, .f32⟩
  | .hbm, ⟨14, _⟩ => ⟨S128x197x768, .f32⟩
  | .hbm, ⟨15, _⟩ => ⟨S1x197x768, .f32⟩
  | .hbm, ⟨16, _⟩ => ⟨S128x197x768, .f32⟩
  | .hbm, ⟨17, _⟩ => ⟨S128x197x768, .f32⟩
  | _, _ => ⟨S128x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  shapeCasts_S128x3x224x224_S128x3x14x16x14x16 : S128x3x224x224.ShapeCasts S128x3x14x16x14x16
  transposes_S128x3x14x16x14x16_S128x14x14x3x16x16_0_2_4_1_3_5 : S128x3x14x16x14x16.Transposes [0, 2, 4, 1, 3, 5] S128x14x14x3x16x16
  shapeCasts_S128x14x14x3x16x16_S128x196x768 : S128x14x14x3x16x16.ShapeCasts S128x196x768
  bcast_S768_S1x1x768_2 : S768.BroadcastsInDim S1x1x768 (![2] : Fin 1 → Fin S1x1x768.rank)
  bcast_S1x1x768_S128x196x768_0_1_2 : S1x1x768.BroadcastsInDim S128x196x768 (![0, 1, 2] : Fin 3 → Fin S128x196x768.rank)
  bcast_S1x768_S1x1x768_1_2 : S1x768.BroadcastsInDim S1x1x768 (![1, 2] : Fin 2 → Fin S1x1x768.rank)
  bcast_S1x1x768_S128x1x768_0_1_2 : S1x1x768.BroadcastsInDim S128x1x768 (![0, 1, 2] : Fin 3 → Fin S128x1x768.rank)
  concatenates_S128x1x768_S128x196x768_S128x197x768_d1 : Shape.Concatenates [S128x1x768, S128x196x768] S128x197x768 1
  bcast_S197x768_S1x197x768_1_2 : S197x768.BroadcastsInDim S1x197x768 (![1, 2] : Fin 2 → Fin S1x197x768.rank)
  bcast_S1x197x768_S128x197x768_0_1_2 : S1x197x768.BroadcastsInDim S128x197x768 (![0, 1, 2] : Fin 3 → Fin S128x197x768.rank)
  dot_S128x196x768_S768x768_S128x196x768_2_1_01_0_n_n_wf : DotDims.WF S128x196x768 S768x768 S128x196x768 [2] [1] [0, 1] [0] [] []

variable [Facts₀]

def dot_S128x196x768_S768x768_S128x196x768_2_1_01_0_n_n : DotDims S128x196x768 S768x768 S128x196x768 where
  lhsContracting := [2]
  rhsContracting := [1]
  lhsNonContracting := [0, 1]
  rhsNonContracting := [0]
  lhsBatch := []
  rhsBatch := []
  wf := dot_S128x196x768_S768x768_S128x196x768_2_1_01_0_n_n_wf

class Facts : Prop extends Facts₀ where

variable [Facts]
-- ==== Proof.HostSide.lean ====
/-
  The host operations around the region, as values.

  Before the region the program prepares what the region stages: the image batch flattened into patches (a reshape,
  a transpose and a reshape), the weight transposed, the bias laid as one row, and the positional table cut into
  its row 0 and its rows 1 … 196. After the region it adds the table's row 0 to the class token, spreads that row
  over the 128 images, and joins it in front of the region's output along the row axis. Each array below is stated
  as those operations' term of the program's arguments; nothing is computed here.
-/
import proofs.«167778_j21715354649842_1_alg».proof.Proof.Gen.KernelIdeal.Frame
import Idealize.ShloMosaic.Lib.StableHlo.Run
import Idealize.ShloMosaic.PureOps.Ideal

noncomputable section

namespace Cert.KernelIdeal.HostSide

open Idealize.ShloMosaic Idealize.ShloMosaic.TcCoe Idealize.SL.Sem Idealize.ShloMosaic.StableHlo
open Cert.KernelIdeal Cert.KernelIdeal.Gen

/-- The image batch cut into 16 × 16 patches, each patch's three colour planes flattened into 768 pixels. -/
def patches (x : S128x3x224x224.Idx → EReal) : S128x196x768.Idx → EReal :=
  shapeCast S128x196x768
    (transpose S128x14x14x3x16x16 [0, 2, 4, 1, 3, 5]
      (shapeCast S128x3x14x16x14x16 x shapeCasts_S128x3x224x224_S128x3x14x16x14x16)
      transposes_S128x3x14x16x14x16_S128x14x14x3x16x16_0_2_4_1_3_5)
    shapeCasts_S128x14x14x3x16x16_S128x196x768

variable (m : (ℓ : Loc nD τ sig) → Buf (Elt Ideal) ℓ)

/-! ## What the region stages -/

/-- The patch array the region reads is the patches of the first argument. -/
theorem staged_patches (c : Dev nD) :
    (V m c main_v2 : S128x196x768.Idx → EReal) = patches (m ((c : Thread nD τ).loc main_arg0)) := by
  show StableHlo.after hostOps0 (fun b => m (c, b)) (Proc.devRef .tc main_v2) = _
  after_results <;> rfl

/-- The weight the region reads is the second argument transposed. -/
theorem staged_weight (c : Dev nD) : (V m c main_v3 : S768x768.Idx → EReal)
    = transpose S768x768 [1, 0] (m ((c : Thread nD τ).loc main_arg1)) transposes_S768x768_S768x768_1_0 := by
  show StableHlo.after hostOps0 (fun b => m (c, b)) (Proc.devRef .tc main_v3) = _
  after_results <;> rfl

/-- The bias row the region reads is the third argument laid as one row. -/
theorem staged_bias (c : Dev nD) : (V m c main_v4 : S1x768.Idx → EReal)
    = shapeCast S1x768 (m ((c : Thread nD τ).loc main_arg2)) shapeCasts_S768_S1x768 := by
  show StableHlo.after hostOps0 (fun b => m (c, b)) (Proc.devRef .tc main_v4) = _
  after_results <;> rfl

/-- The positional rows the region reads are rows 1 … 196 of the fifth argument. -/
theorem staged_pos (c : Dev nD) : (V m c main_v5 : S196x768.Idx → EReal)
    = extractStridedSlice S196x768 ![1, 0] (m ((c : Thread nD τ).loc main_arg4)) slices_S197x768_S196x768_1_0 := by
  show StableHlo.after hostOps0 (fun b => m (c, b)) (Proc.devRef .tc main_v5) = _
  after_results <;> rfl

/-- Row 0 of the positional table, cut out before the region for the class row. -/
theorem pos_row0 (c : Dev nD) : (V m c main_v6 : S1x768.Idx → EReal)
    = extractStridedSlice S1x768 ![0, 0] (m ((c : Thread nD τ).loc main_arg4)) slices_S197x768_S1x768_0_0 := by
  show StableHlo.after hostOps0 (fun b => m (c, b)) (Proc.devRef .tc main_v6) = _
  after_results <;> rfl

/-! ## The operations after the region -/

/-- The program's result: the class row (the fourth argument plus the table's row 0), spread over the images, joined
    in front of the array the region left in its output. -/
theorem tail_result (c : Dev nD) :
    (Pipeline.afterTail₀ cfgs (dats m) 0 (V0 m) [hostOps1] c main_v11 : S128x197x768.Idx → EReal)
      = concatenate S128x197x768 1
          [⟨S128x1x768, broadcastInDim S128x1x768 ![0, 1, 2] bcast_S1x1x768_S128x1x768_0_1_2
              (broadcastInDim S1x1x768 ![1, 2] bcast_S1x768_S1x1x768_1_2
                (addf (F := Ideal) (s := S1x768) (φ := .f32) (m ((c : Thread nD τ).loc main_arg3)) (V m c main_v6)))⟩,
            ⟨S128x196x768, ((dats m 0 c).arrAt 4 cfg0.N : S128x196x768.Idx → EReal)⟩]
          concatenates_S128x1x768_S128x196x768_S128x197x768_d1 := by
  have e3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans
      (V_main_arg3 m c)
  have e6 : Pipeline.withArrays (cfgs 0).spec c (V0 m c) (fun w => (dats m 0 c).arrAt w (cfgs 0).N) (Proc.devRef .tc main_v6)
      = V m c main_v6 :=
    Pipeline.withArrays_of_ne _ c (V0 m c) _ main_v6 (by exact (by decide : ∀ w, Pipeline.arrRef spec0 w ≠ main_v6))
  have e7 : Pipeline.withArrays (cfgs 0).spec c (V0 m c) (fun w => (dats m 0 c).arrAt w (cfgs 0).N) (Proc.devRef .tc main_v7)
      = (dats m 0 c).arrAt 4 cfg0.N :=
    Pipeline.withArrays_arr spec0 launch0.win.arr_inj c (V0 m c) (fun w => (dats m 0 c).arrAt w (cfgs 0).N) 4
  unfold Pipeline.afterTail₀
  show StableHlo.after hostOps1 _ (Proc.devRef .tc main_v11) = _
  after_results
  rw [e3, e6, e7]

end Cert.KernelIdeal.HostSide

end
-- ==== Proof.LibMatmulRowCol.lean ====
/-
  A plain matrix product into a zero accumulator, read at an entry, at the ideal values.

  For any dimension numbers over an [M, K] left operand, a [K, N] right operand and an [M, N] result that
  contract the left operand's second axis against the right operand's first (stated as four coordinate facts
  about the dimension numbers' operand indices, which a literal record proves by unfolding), entry (p, c) of
  `matmul D none X W 0` is the sum over k of X p k · W k c. General in M, K, N and in both operand formats;
  nothing in it is specific to one kernel.
-/
import Idealize.ShloMosaic.Lib.ValueIdx
import Idealize.ShloMosaic.PureOps.Ideal.Laws

noncomputable section

namespace Cert.LibMatmul

open Idealize.ShloMosaic Idealize.ShloMosaic.ValueIdx

/-- For dimension numbers contracting the left operand's columns against the right operand's rows
    (the four coordinate facts hl0 … hr1 say so), entry (p, c) of the product into a zero accumulator
    is Σ_k X p k · W k c. -/
theorem matmul_rowcol {M K N : Nat} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (X : FVec Ideal ⟨2, ![M, K]⟩ φ₁) (W : FVec Ideal ⟨2, ![K, N]⟩ φ₂) (p : Fin M) (c : Fin N) :
    matmul D none X W (constant ⟨2, ![M, N]⟩ .f32 0x00000000#32) (ix2 p c)
      = ∑ k : Fin K, X (ix2 p k) * W (ix2 k c) := by
  refine (Ideal.matmul_constant_zero_apply D none X W (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibMatmul

end
-- ==== Proof.TokenBlock.lean ====
/-
  What the kernel body stores, read at one entry.

  At a grid point the body holds one image's patches x (a [1, 196, 768] block), the transposed weight w
  ([768 pixels, 768 features]), the bias as one row r ([1, 768]) and rows 1 … 196 of the positional table q
  ([196, 768]). It stores, at patch p and feature h, ((Σ_k x[0, p, k] · w[k, h]) + r[0, h]) + q[p, h]: the matrix
  product into a zero accumulator is the plain sum at the ideal values, the changes of float format are the
  identity, and the shape casts only add or drop the block's leading unit axis.
-/
import proofs.«167778_j21715354649842_1_alg».proof.Proof.Gen.KernelIdeal.Skeleton
import proofs.«167778_j21715354649842_1_alg».proof.Proof.LibMatmulRowCol
import Idealize.ShloMosaic.Lib.ValueLayout

noncomputable section

open scoped BigOperators

namespace Cert.KernelIdeal.TokenBlock

open Idealize.ShloMosaic Idealize.ShloMosaic.ValueIdx Cert.KernelIdeal Cert.KernelIdeal.Gen

/-! ## The body's dimension numbers: rows of the left operand against columns of the right -/

theorem dot_l0 (i : S196x768.Idx) (q : dot_S196x768_S768x768_S196x768_1_0_0_1_n_n.contr.Idx) :
    (dot_S196x768_S768x768_S196x768_1_0_0_1_n_n.lhsIdx i q 0).val = (i 0).val := by
  unfold DotDims.lhsIdx
  rw [dif_neg (show ¬(0 : Fin S196x768.rank) ∈ dot_S196x768_S768x768_S196x768_1_0_0_1_n_n.lhsBatch by decide),
    dif_pos (show (0 : Fin S196x768.rank) ∈ dot_S196x768_S768x768_S196x768_1_0_0_1_n_n.lhsNonContracting by decide)]
  rfl
theorem dot_l1 (i : S196x768.Idx) (q : dot_S196x768_S768x768_S196x768_1_0_0_1_n_n.contr.Idx) :
    (dot_S196x768_S768x768_S196x768_1_0_0_1_n_n.lhsIdx i q 1).val = (q ⟨0, by decide⟩).val :=
  dot_S196x768_S768x768_S196x768_1_0_0_1_n_n.lhsIdx_val_of_single rfl i q
theorem dot_r0 (i : S196x768.Idx) (q : dot_S196x768_S768x768_S196x768_1_0_0_1_n_n.contr.Idx) :
    (dot_S196x768_S768x768_S196x768_1_0_0_1_n_n.rhsIdx i q 0).val = (q ⟨0, by decide⟩).val :=
  dot_S196x768_S768x768_S196x768_1_0_0_1_n_n.rhsIdx_val_of_single rfl i q
theorem dot_r1 (i : S196x768.Idx) (q : dot_S196x768_S768x768_S196x768_1_0_0_1_n_n.contr.Idx) :
    (dot_S196x768_S768x768_S196x768_1_0_0_1_n_n.rhsIdx i q 1).val = (i 1).val := by
  unfold DotDims.rhsIdx
  rw [dif_neg (show ¬(1 : Fin S768x768.rank) ∈ dot_S196x768_S768x768_S196x768_1_0_0_1_n_n.rhsBatch by decide),
    dif_pos (show (1 : Fin S768x768.rank) ∈ dot_S196x768_S768x768_S196x768_1_0_0_1_n_n.rhsNonContracting by decide)]
  rfl

/-! ## The stored value at (u, p, h) -/

/-- The body's one store, at the block's entry (u, p, h) (u the unit axis's only coordinate). -/
theorem stored_apply (x : Vec Ideal S1x196x768 .f32) (w : Vec Ideal S768x768 .f32) (r : Vec Ideal S1x768 .f32)
    (q : Vec Ideal S196x768 .f32) (u : Fin 1) (p : Fin 196) (h : Fin 768) :
    k0_pay1 (F := Ideal) x w r q (ix3 u p h)
      = ((∑ k : Fin 768, x (ix3 (0 : Fin 1) p k) * w (ix2 k h)) + r (ix2 (0 : Fin 1) h)) + q (ix2 p h) := by
  unfold k0_pay1
  refine (shapeCast_ab_1ab_apply _ _ u p h).trans ?_
  show (_ + _) + _ = _
  refine congrArg₂ (· + ·) (congrArg₂ (· + ·) ?_ ?_) ?_
  · refine (Cert.LibMatmul.matmul_rowcol dot_S196x768_S768x768_S196x768_1_0_0_1_n_n rfl rfl dot_l0 dot_l1 dot_r0 dot_r1
      _ _ p h).trans ?_
    refine Finset.sum_congr rfl fun k _ => congrArg₂ (· * ·) ?_ ?_
    · exact shapeCast_1ab_ab_apply x _ p k
    · exact congrFun (shapeCast_self w _) (ix2 k h)
  · refine (broadcastTo_1b_ab_apply _ _ p h).trans ?_
    exact congrFun (shapeCast_self r _) (ix2 (0 : Fin 1) h)
  · exact congrFun (shapeCast_self q _) (ix2 p h)

end Cert.KernelIdeal.TokenBlock

end
-- ==== Proof.TokenArray.lean ====
/-
  The array the region leaves: every patch of every image embedded.

  The region runs the body once per image: grid point t stages image t's patches (block t of the patch array X),
  the whole transposed weight Wt, the bias row R and the 196 positional rows Q, and writes back block t of its
  output. So what point t writes back is block t of ONE array of X, Wt, R and Q,
    tokens[n, p, h] = ((Σ_k X[n, p, k] · Wt[k, h]) + R[0, h]) + Q[p, h],
  and since the 128 blocks tile the output along its first axis, the output ends holding exactly that array.
-/
import proofs.«167778_j21715354649842_1_alg».proof.Proof.Gen.KernelIdeal.Frame
import proofs.«167778_j21715354649842_1_alg».proof.Proof.TokenBlock
import Idealize.ShloMosaic.Lib.Pipeline.Value

set_option maxRecDepth 16384

noncomputable section

open scoped BigOperators

namespace Cert.KernelIdeal.TokenArray

open Idealize.ShloMosaic Idealize.ShloMosaic.TcCoe Idealize.ShloMosaic.ValueIdx Idealize.SL.Sem
open Cert.KernelIdeal Cert.KernelIdeal.Gen

/-- Patch p of image n at feature h, from the four arrays the region stages. -/
def tokenAt (X : S128x196x768.Idx → EReal) (Wt : S768x768.Idx → EReal) (R : S1x768.Idx → EReal) (Q : S196x768.Idx → EReal)
    (n : Fin 128) (p : Fin 196) (h : Fin 768) : EReal :=
  ((∑ k : Fin 768, X (ix3 n p k) * Wt (ix2 k h)) + R (ix2 (0 : Fin 1) h)) + Q (ix2 p h)

/-- The region's output array as a function of the four arrays it stages. -/
def tokens (X : S128x196x768.Idx → EReal) (Wt : S768x768.Idx → EReal) (R : S1x768.Idx → EReal) (Q : S196x768.Idx → EReal) :
    S128x196x768.Idx → EReal :=
  fun j => tokenAt X Wt R Q (j 0) (j 1) (j 2)

variable (m : (ℓ : Loc nD τ sig) → Buf (Elt Ideal) ℓ)

theorem zeros3 : (![0, 0, 0] : Fin 3 → Nat) = fun _ => 0 := funext fun a => by fin_cases a <;> rfl
theorem zeros2 : (![0, 0] : Fin 2 → Nat) = fun _ => 0 := funext fun a => by fin_cases a <;> rfl

/-- A grid point's number is below 128. -/
theorem point_lt (t : Fin cfg0.N) : t.val < 128 := Nat.lt_of_lt_of_eq t.isLt N_0

/-- Where each window's block sits at point t: the patches' and the output's block index is (t, 0, 0); the weight,
    the bias row and the positional rows are staged whole. Decided over the grid's 128 points. -/
theorem block_index : ∀ t : Fin cfg0.N,
    win0_0.index t (0 : Fin 3) = t.val ∧ win0_0.index t (1 : Fin 3) = 0 ∧ win0_0.index t (2 : Fin 3) = 0
    ∧ win0_4.index t (0 : Fin 3) = t.val ∧ win0_4.index t (1 : Fin 3) = 0 ∧ win0_4.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-! ## The staged blocks, read at an entry -/

/-- Image t's patches: entry (u, p, k) of the block is the patch array at (t, p, k). -/
theorem patches_block (c : Dev nD) (t : Fin cfg0.N) (u : Fin 1) (p : Fin 196) (k : Fin 768) :
    iblk m c 0 t (ix3 u p k) = V m c main_v2 (ix3 (⟨t.val, point_lt t⟩ : Fin 128) p k) := by
  show V m c main_v2 (((cfg0.win 0).blk t).view.emb (ix3 u p k)) = _
  refine congrArg (V m c main_v2) (funext fun a => Fin.ext ?_)
  obtain ⟨e0, e1, e2, -⟩ := block_index t
  match a with
  | ⟨0, _⟩ => show win0_0.index t (0 : Fin 3) * 1 + 1 * u.val = t.val; omega
  | ⟨1, _⟩ => show win0_0.index t (1 : Fin 3) * 196 + 1 * p.val = p.val; omega
  | ⟨2, _⟩ => show win0_0.index t (2 : Fin 3) * 768 + 1 * k.val = k.val; omega

/-- The transposed weight, whole. -/
theorem weight_block (c : Dev nD) (t : Fin cfg0.N) (k : Fin 768) (h : Fin 768) :
    iblk m c 1 t (ix2 k h) = V m c main_v3 (ix2 k h) := by
  show V m c main_v3 (((cfg0.win 1).blk t).view.emb (ix2 k h)) = _
  refine congrArg (V m c main_v3) (funext fun a => Fin.ext ?_)
  obtain ⟨-, -, -, -, -, -, e0, e1, -⟩ := block_index t
  match a with
  | ⟨0, _⟩ => show win0_1.index t (0 : Fin 2) * 768 + 1 * k.val = k.val; omega
  | ⟨1, _⟩ => show win0_1.index t (1 : Fin 2) * 768 + 1 * h.val = h.val; omega

/-- The bias row, whole. -/
theorem bias_block (c : Dev nD) (t : Fin cfg0.N) (u : Fin 1) (h : Fin 768) :
    iblk m c 2 t (ix2 u h) = V m c main_v4 (ix2 u h) := by
  show V m c main_v4 (((cfg0.win 2).blk t).view.emb (ix2 u h)) = _
  refine congrArg (V m c main_v4) (funext fun a => Fin.ext ?_)
  obtain ⟨-, -, -, -, -, -, -, -, e0, e1, -⟩ := block_index t
  match a with
  | ⟨0, _⟩ => show win0_2.index t (0 : Fin 2) * 1 + 1 * u.val = u.val; omega
  | ⟨1, _⟩ => show win0_2.index t (1 : Fin 2) * 768 + 1 * h.val = h.val; omega

/-- The positional rows, whole. -/
theorem pos_block (c : Dev nD) (t : Fin cfg0.N) (p : Fin 196) (h : Fin 768) :
    iblk m c 3 t (ix2 p h) = V m c main_v5 (ix2 p h) := by
  show V m c main_v5 (((cfg0.win 3).blk t).view.emb (ix2 p h)) = _
  refine congrArg (V m c main_v5) (funext fun a => Fin.ext ?_)
  obtain ⟨-, -, -, -, -, -, -, -, -, -, e0, e1⟩ := block_index t
  match a with
  | ⟨0, _⟩ => show win0_3.index t (0 : Fin 2) * 196 + 1 * p.val = p.val; omega
  | ⟨1, _⟩ => show win0_3.index t (1 : Fin 2) * 768 + 1 * h.val = h.val; omega

/-- Entry (u, p, h) of the output's block at point t sits at (t, p, h) of the output array. -/
theorem out_block (t : Fin cfg0.N) (u : Fin 1) (p : Fin 196) (h : Fin 768) :
    ((cfg0.win 4).blk t).view.emb (ix3 u p h) = ix3 (⟨t.val, point_lt t⟩ : Fin 128) p h := by
  refine funext fun a => Fin.ext ?_
  obtain ⟨-, -, -, e0, e1, e2, -⟩ := block_index t
  match a with
  | ⟨0, _⟩ => show win0_4.index t (0 : Fin 3) * 1 + 1 * u.val = t.val; omega
  | ⟨1, _⟩ => show win0_4.index t (1 : Fin 3) * 196 + 1 * p.val = p.val; omega
  | ⟨2, _⟩ => show win0_4.index t (2 : Fin 3) * 768 + 1 * h.val = h.val; omega

/-! ## What a point writes back, and the array after the run -/

/-- WHAT POINT t WRITES BACK is block t of `tokens` of the staged arrays as the region finds them. -/
theorem flushed_eq (c : Dev nD) (t : Fin cfg0.N) :
    (dats m 0 c).flushed 4 t
      = ((cfg0.win 4).blk t).view.read (Elt Ideal) (tokens (V m c main_v2) (V m c main_v3) (V m c main_v4) (V m c main_v5)) := by
  show (cfg0.win 4).cut (grid0.coords t) ((dats m 0 c).after 4 t) = _
  rw [after0_4]
  unfold out0_4
  rw [View.canon_unit_zero zeros3]
  simp only [View.ld_unit_zero (S := S1x196x768) zeros3, View.ld_unit_zero (S := S768x768) zeros2,
    View.ld_unit_zero (S := S1x768) zeros2, View.ld_unit_zero (S := S196x768) zeros2]
  funext y
  obtain ⟨u, p, h, rfl⟩ : ∃ (u : Fin 1) (p : Fin 196) (h : Fin 768), y = ix3 u p h := ⟨y 0, y 1, y 2, eq_ix3 y⟩
  show k0_pay1 (F := Ideal) (iblk m c 0 t) (iblk m c 1 t) (iblk m c 2 t) (iblk m c 3 t) (ix3 u p h)
    = tokens (V m c main_v2) (V m c main_v3) (V m c main_v4) (V m c main_v5) (((cfg0.win 4).blk t).view.emb (ix3 u p h))
  rw [out_block t u p h]
  refine (Cert.KernelIdeal.TokenBlock.stored_apply (iblk m c 0 t) (iblk m c 1 t) (iblk m c 2 t) (iblk m c 3 t) u p h).trans ?_
  show _ = tokenAt (V m c main_v2) (V m c main_v3) (V m c main_v4) (V m c main_v5) (⟨t.val, point_lt t⟩ : Fin 128) p h
  unfold tokenAt
  exact congrArg₂ (· + ·) (congrArg₂ (· + ·)
    (Finset.sum_congr rfl fun k _ => congrArg₂ (· * ·) (patches_block m c t 0 p k) (weight_block m c t k h))
    (bias_block m c t 0 h)) (pos_block m c t p h)

/-- An index of the output array is in point t's block iff each coordinate is in the block's range on its axis. -/
theorem mem_block (t : Fin cfg0.N) (i : S128x196x768.Idx) :
    i ∈ ((cfg0.win 4).blk t).view.set ↔ ∀ a : Fin 3, win0_4.index t a * S1x196x768.size a ≤ (i a).val
      ∧ (i a).val < win0_4.index t a * S1x196x768.size a + S1x196x768.size a := by
  show i ∈ ((View.whole main_v7).slice (win0_4.rect t)).set ↔ _
  rw [View.set_slice_whole, Rect.mem_set_unit]
  exact Iff.rfl

/-- Every index of the output array is in the block of the point its image names. -/
theorem covered (i : S128x196x768.Idx) :
    ∃ t : Fin cfg0.N, (cfg0.win 4).flush t = true ∧ i ∈ ((cfg0.win 4).blk t).view.set := by
  have hi0 : (i 0).val < 128 := (i 0).isLt
  have hi1 : (i 1).val < 196 := (i 1).isLt
  have hi2 : (i 2).val < 768 := (i 2).isLt
  obtain ⟨t, ht⟩ : ∃ t : Fin cfg0.N, t.val = (i 0).val :=
    ⟨⟨(i 0).val, Nat.lt_of_lt_of_eq hi0 N_0.symm⟩, rfl⟩
  refine ⟨t, flush0_4 t, ?_⟩
  rw [mem_block]
  obtain ⟨-, -, -, e0, e1, e2, -⟩ := block_index t
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 196 ≤ (i 1).val ∧ (i 1).val < win0_4.index t (1 : Fin 3) * 196 + 196
    omega
  | ⟨2, _⟩ =>
    show win0_4.index t (2 : Fin 3) * 768 ≤ (i 2).val ∧ (i 2).val < win0_4.index t (2 : Fin 3) * 768 + 768
    omega

/-- THE OUTPUT ARRAY after the run is `tokens` of the staged arrays. -/
theorem final (c : Dev nD) :
    (dats m 0 c).arrAt 4 cfg0.N = tokens (V m c main_v2) (V m c main_v3) (V m c main_v4) (V m c main_v5) :=
  (dats m 0 c).arrAt_eq_of_cover 4 _ (fun t _ => flushed_eq m c t) covered

end Cert.KernelIdeal.TokenArray

end
-- ==== Proof.PatchEmbed.lean ====
/-
  The patch-embedding layer as one function of its arrays, entry by entry, on the extended reals.

  P is the batch of flattened patches, [128 images, 196 patches, 768 pixels]; W the linear layer's weight,
  [768 features, 768 pixels]; b its bias; ct the class token, one row of 768 features; pos the positional
  table, 197 rows. The output has 197 rows per image: row 0 is the class token plus row 0 of the positional
  table; row p + 1 is patch p's embedding, ((Σ_k P[n, p, k] · W[h, k]) + b[h]) + pos[p + 1, h] — the sum and the
  two additions grouped exactly so. Nothing here needs the entries to be finite.
-/
import Idealize.ShloMosaic.Lib.ValueIdx

noncomputable section

open scoped BigOperators

namespace Cert.PatchEmbed

open Idealize.ShloMosaic Idealize.ShloMosaic.ValueIdx

/-- Patch p of image n embedded, at feature h: the weight's row h against the patch's pixels, plus the bias,
    plus row p + 1 of the positional table. -/
def token (P : (⟨3, ![128, 196, 768]⟩ : Shape).Idx → EReal) (W : (⟨2, ![768, 768]⟩ : Shape).Idx → EReal)
    (b : (⟨1, ![768]⟩ : Shape).Idx → EReal) (pos : (⟨2, ![197, 768]⟩ : Shape).Idx → EReal)
    (n : Fin 128) (p : Fin 196) (h : Fin 768) : EReal :=
  ((∑ k : Fin 768, P (ix3 n p k) * W (ix2 h k)) + b (ix1 h)) + pos (ix2 (⟨p.val + 1, by omega⟩ : Fin 197) h)

/-- The class row at feature h: the class token plus row 0 of the positional table. -/
def classEntry (ct : (⟨2, ![1, 768]⟩ : Shape).Idx → EReal) (pos : (⟨2, ![197, 768]⟩ : Shape).Idx → EReal)
    (h : Fin 768) : EReal :=
  ct (ix2 (0 : Fin 1) h) + pos (ix2 (0 : Fin 197) h)

/-- The layer's output at image n, row r, feature h: the class row at r = 0, patch r - 1 otherwise. -/
def embedAt (P : (⟨3, ![128, 196, 768]⟩ : Shape).Idx → EReal) (W : (⟨2, ![768, 768]⟩ : Shape).Idx → EReal)
    (b : (⟨1, ![768]⟩ : Shape).Idx → EReal) (ct : (⟨2, ![1, 768]⟩ : Shape).Idx → EReal)
    (pos : (⟨2, ![197, 768]⟩ : Shape).Idx → EReal) (n : Fin 128) (r : Fin 197) (h : Fin 768) : EReal :=
  if hr : r.val = 0 then classEntry ct pos h else token P W b pos n (⟨r.val - 1, by omega⟩ : Fin 196) h

/-- The layer's output array. -/
def embed (P : (⟨3, ![128, 196, 768]⟩ : Shape).Idx → EReal) (W : (⟨2, ![768, 768]⟩ : Shape).Idx → EReal)
    (b : (⟨1, ![768]⟩ : Shape).Idx → EReal) (ct : (⟨2, ![1, 768]⟩ : Shape).Idx → EReal)
    (pos : (⟨2, ![197, 768]⟩ : Shape).Idx → EReal) : (⟨3, ![128, 197, 768]⟩ : Shape).Idx → EReal :=
  fun i => embedAt P W b ct pos (i 0) (i 1) (i 2)

variable (P : (⟨3, ![128, 196, 768]⟩ : Shape).Idx → EReal) (W : (⟨2, ![768, 768]⟩ : Shape).Idx → EReal)
  (b : (⟨1, ![768]⟩ : Shape).Idx → EReal) (ct : (⟨2, ![1, 768]⟩ : Shape).Idx → EReal)
  (pos : (⟨2, ![197, 768]⟩ : Shape).Idx → EReal)

/-- The output at an index written by its coordinates. -/
theorem embed_ix3 (n : Fin 128) (r : Fin 197) (h : Fin 768) :
    embed P W b ct pos (ix3 n r h) = embedAt P W b ct pos n r h := rfl

/-- Row 0 is the class row. -/
theorem embedAt_class (n : Fin 128) (r : Fin 197) (h : Fin 768) (hr : r.val = 0) :
    embedAt P W b ct pos n r h = classEntry ct pos h := by
  unfold embedAt; rw [dif_pos hr]

/-- Row p + 1 is patch p. -/
theorem embedAt_patch (n : Fin 128) (r : Fin 197) (h : Fin 768) (p : Fin 196) (hr : p.val + 1 = r.val) :
    embedAt P W b ct pos n r h = token P W b pos n p h := by
  unfold embedAt
  rw [dif_neg (by omega)]
  exact congrArg (fun q => token P W b pos n q h) (Fin.ext (by show r.val - 1 = p.val; omega))

end Cert.PatchEmbed

end
-- ==== Proof.LibConcatMiddle.lean ====
/-
  Two rank-3 arrays joined along the middle axis, read at an index given by its coordinates.

  For pieces of shapes [a, n₁, c] and [a, n₂, c] joined along axis 1 into [a, n, c]: a row below n₁ reads the first
  piece at the same coordinates, a row r with r₂ + n₁ = r reads the second piece at row r₂. General in the extents
  and in the element type; nothing in it is specific to one program.
-/
import Idealize.ShloMosaic.Lib.Pipeline.Value
import Idealize.ShloMosaic.Lib.ValueIdx

noncomputable section

namespace Cert.LibConcatMiddle

open Idealize.ShloMosaic Idealize.ShloMosaic.ValueIdx

variable {α : Type}

/-- A row that falls in the first piece reads the first piece there. -/
theorem concat_middle_left {a n₁ n₂ n c : Nat} (x₁ : (⟨3, ![a, n₁, c]⟩ : Shape).Idx → α)
    (x₂ : (⟨3, ![a, n₂, c]⟩ : Shape).Idx → α)
    (h : Shape.Concatenates [(⟨3, ![a, n₁, c]⟩ : Shape), ⟨3, ![a, n₂, c]⟩] ⟨3, ![a, n, c]⟩ 1)
    (i : Fin a) (r : Fin n) (z : Fin c) (r₁ : Fin n₁) (hr : r₁.val = r.val) :
    concatenate ⟨3, ![a, n, c]⟩ 1 [⟨⟨3, ![a, n₁, c]⟩, x₁⟩, ⟨⟨3, ![a, n₂, c]⟩, x₂⟩] h (ix3 i r z) = x₁ (ix3 i r₁ z) :=
  concatenate_pair_apply_left 1 x₁ x₂ h (ix3 i r z) rfl (ix3 i r₁ z) (fun b => by
    match b with
    | ⟨0, _⟩ => rfl
    | ⟨1, _⟩ => exact hr
    | ⟨2, _⟩ => rfl)

/-- A row at or past the first piece's extent reads the second piece, the first extent less. -/
theorem concat_middle_right {a n₁ n₂ n c : Nat} (x₁ : (⟨3, ![a, n₁, c]⟩ : Shape).Idx → α)
    (x₂ : (⟨3, ![a, n₂, c]⟩ : Shape).Idx → α)
    (h : Shape.Concatenates [(⟨3, ![a, n₁, c]⟩ : Shape), ⟨3, ![a, n₂, c]⟩] ⟨3, ![a, n, c]⟩ 1)
    (i : Fin a) (r : Fin n) (z : Fin c) (r₂ : Fin n₂) (hr : r₂.val + n₁ = r.val) :
    concatenate ⟨3, ![a, n, c]⟩ 1 [⟨⟨3, ![a, n₁, c]⟩, x₁⟩, ⟨⟨3, ![a, n₂, c]⟩, x₂⟩] h (ix3 i r z) = x₂ (ix3 i r₂ z) :=
  concatenate_pair_apply_right 1 x₁ x₂ h (ix3 i r z) rfl rfl (ix3 i r₂ z) (fun b => by
    match b with
    | ⟨0, _⟩ => exact fun _ => rfl
    | ⟨1, _⟩ => exact fun hne => absurd rfl hne
    | ⟨2, _⟩ => exact fun _ => rfl) hr

end Cert.LibConcatMiddle

end
-- ==== Proof.KernelValue.lean ====
/-
  The kernel's program computes the patch embedding.

  Its result joins the class row — the class token plus the positional table's row 0, spread over the images — in
  front of the array the region leaves, whose entry (n, p, h) is ((Σ_k P[n, p, k] · Wᵀ[k, h]) + b[h]) + pos[p + 1, h]
  with P the patches of the image batch. Reading the transposed weight, the bias row and the cut positional table
  back at the arguments' own indices, that is `PatchEmbed.embed` of P and the four other arguments, entry by entry.
-/
import proofs.«167778_j21715354649842_1_alg».proof.Proof.HostSide
import proofs.«167778_j21715354649842_1_alg».proof.Proof.TokenArray
import proofs.«167778_j21715354649842_1_alg».proof.Proof.PatchEmbed
import proofs.«167778_j21715354649842_1_alg».proof.Proof.LibConcatMiddle
import Idealize.ShloMosaic.Lib.ValueLayout

noncomputable section

open scoped BigOperators

namespace Cert.KernelIdeal.KernelValue

open Idealize.ShloMosaic Idealize.ShloMosaic.TcCoe Idealize.ShloMosaic.ValueIdx Idealize.SL.Sem
open Cert.KernelIdeal Cert.KernelIdeal.Gen Cert.PatchEmbed

/-- One row of 768 features laid as a [1, 1, 768] array and spread over the 128 images reads, at image n, the row. -/
theorem row_spread (y : S1x768.Idx → EReal) (n : Fin 128) (u : Fin 1) (h : Fin 768) :
    broadcastInDim S128x1x768 ![0, 1, 2] bcast_S1x1x768_S128x1x768_0_1_2
        (broadcastInDim S1x1x768 ![1, 2] bcast_S1x768_S1x1x768_1_2 y) (ix3 n u h)
      = y (ix2 (0 : Fin 1) h) := by
  refine (broadcastInDim_apply _ bcast_S1x1x768_S128x1x768_0_1_2 _ (ix3 n u h) (ix3 (0 : Fin 1) (0 : Fin 1) h) (fun a => ?_)).trans ?_
  · match a with
    | ⟨0, _⟩ => show 0 = if (1 : Nat) = 1 then 0 else n.val; rw [if_pos rfl]
    | ⟨1, _⟩ => show 0 = if (1 : Nat) = 1 then 0 else u.val; rw [if_pos rfl]
    | ⟨2, _⟩ => show h.val = if (768 : Nat) = 1 then 0 else h.val; rw [if_neg (by decide)]
  · refine broadcastInDim_apply _ bcast_S1x768_S1x1x768_1_2 y (ix3 (0 : Fin 1) (0 : Fin 1) h) (ix2 (0 : Fin 1) h) (fun a => ?_)
    match a with
    | ⟨0, _⟩ => show 0 = if (1 : Nat) = 1 then 0 else 0; rw [if_pos rfl]
    | ⟨1, _⟩ => show h.val = if (768 : Nat) = 1 then 0 else h.val; rw [if_neg (by decide)]

/-- The class row joined in front of the region's array, over the arguments' own indices, is the patch embedding. -/
theorem joined_eq (x0 : S128x3x224x224.Idx → EReal) (x1 : S768x768.Idx → EReal) (x2 : S768.Idx → EReal)
    (x3 : S1x768.Idx → EReal) (x4 : S197x768.Idx → EReal) :
    (concatenate S128x197x768 1
        [⟨S128x1x768, broadcastInDim S128x1x768 ![0, 1, 2] bcast_S1x1x768_S128x1x768_0_1_2
            (broadcastInDim S1x1x768 ![1, 2] bcast_S1x768_S1x1x768_1_2
              (addf (F := Ideal) (s := S1x768) (φ := .f32) x3 (extractStridedSlice S1x768 ![0, 0] x4 slices_S197x768_S1x768_0_0)))⟩,
          ⟨S128x196x768, TokenArray.tokens (HostSide.patches x0)
            (transpose S768x768 [1, 0] x1 transposes_S768x768_S768x768_1_0)
            (shapeCast S1x768 x2 shapeCasts_S768_S1x768)
            (extractStridedSlice S196x768 ![1, 0] x4 slices_S197x768_S196x768_1_0)⟩]
        concatenates_S128x1x768_S128x196x768_S128x197x768_d1 : S128x197x768.Idx → EReal)
      = embed (HostSide.patches x0) x1 x2 x3 x4 := by
  funext i
  obtain ⟨n, r, h, rfl⟩ : ∃ (n : Fin 128) (r : Fin 197) (h : Fin 768), i = ix3 n r h := ⟨i 0, i 1, i 2, eq_ix3 i⟩
  rw [embed_ix3]
  by_cases hr : r.val = 0
  · -- the class row
    rw [embedAt_class _ _ _ _ _ n r h hr]
    unfold classEntry
    refine (Cert.LibConcatMiddle.concat_middle_left _ _ _ n r h (0 : Fin 1) hr.symm).trans ?_
    refine (row_spread _ n 0 h).trans ?_
    show x3 (ix2 (0 : Fin 1) h) + extractStridedSlice S1x768 ![0, 0] x4 slices_S197x768_S1x768_0_0 (ix2 (0 : Fin 1) h) = _
    exact congrArg₂ (· + ·) rfl (slice2_axis0_apply 0 x4 _ (0 : Fin 1) h (0 : Fin 197) rfl)
  · -- a patch row
    obtain ⟨p, hp⟩ : ∃ p : Fin 196, p.val + 1 = r.val := ⟨⟨r.val - 1, by omega⟩, by show r.val - 1 + 1 = r.val; omega⟩
    rw [embedAt_patch _ _ _ _ _ n r h p hp]
    refine (Cert.LibConcatMiddle.concat_middle_right _ _ _ n r h p hp).trans ?_
    show TokenArray.tokenAt (HostSide.patches x0) (transpose S768x768 [1, 0] x1 transposes_S768x768_S768x768_1_0)
      (shapeCast S1x768 x2 shapeCasts_S768_S1x768) (extractStridedSlice S196x768 ![1, 0] x4 slices_S197x768_S196x768_1_0) n p h = _
    unfold TokenArray.tokenAt token
    refine congrArg₂ (· + ·) (congrArg₂ (· + ·) (Finset.sum_congr rfl fun k _ => congrArg₂ (· * ·) rfl ?_) ?_) ?_
    · exact transpose_ix2_apply x1 _ k h
    · exact shapeCast_a_1a_apply x2 _ (0 : Fin 1) h
    · exact slice2_axis0_apply 1 x4 _ p h (⟨p.val + 1, by omega⟩ : Fin 197) (by show p.val + 1 = 1 + p.val; omega)

variable (m : (ℓ : Loc nD τ sig) → Buf (Elt Ideal) ℓ) (ρ : Dev nD → PrngReg)

/-- The program's result buffer after the run holds the patch embedding of the arguments. -/
theorem result_eq (c : Dev nD) :
    (Pipeline.afterTail₀ cfgs (dats m) 0 (V0 m) [hostOps1] c main_v11 : S128x197x768.Idx → EReal)
      = embed (HostSide.patches (m ((c : Thread nD τ).loc main_arg0))) (m ((c : Thread nD τ).loc main_arg1))
          (m ((c : Thread nD τ).loc main_arg2)) (m ((c : Thread nD τ).loc main_arg3)) (m ((c : Thread nD τ).loc main_arg4)) := by
  refine (HostSide.tail_result m c).trans ?_
  rw [TokenArray.final m c, HostSide.staged_patches m c, HostSide.staged_weight m c, HostSide.staged_bias m c,
    HostSide.staged_pos m c, HostSide.pos_row0 m c]
  exact joined_eq _ _ _ _ _

/-- The kernel's run: every weakly fair execution terminates with the result at the patch embedding of the arguments
    and the arguments unchanged. -/
theorem run : θ_run defs (onTc (τ := τ) (main (F := Ideal))) ⟨m, fun _ => 0, ρ⟩ (fun r => ∀ c : Dev nD,
      r.2.mem ((c.tc : Thread nD τ).loc main_v11)
        = embed (HostSide.patches (m ((c : Thread nD τ).loc main_arg0))) (m ((c : Thread nD τ).loc main_arg1))
            (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v11 (Pipeline.mem_restRefs_of main_v11 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KernelValue

end
-- ==== Proof.RefEmbed.lean ====
/-
  The reference computes the patch embedding.

  The reference flattens the image batch into patches P (a reshape, a transpose and a reshape, carried here as one
  array), contracts P's pixel axis against the weight's, adds the bias, puts the class token in front as row 0, and
  adds the positional table to all 197 rows. Read at image n, row r, feature h that is the class token plus row 0 of
  the table when r = 0, and ((Σ_k P[n, r-1, k] · W[h, k]) + b[h]) + pos[r, h] otherwise: `PatchEmbed.embed`.
-/
import proofs.«167778_j21715354649842_1_alg».proof.Proof.Gen.ReferenceIdeal.Read
import proofs.«167778_j21715354649842_1_alg».proof.Proof.PatchEmbed
import proofs.«167778_j21715354649842_1_alg».proof.Proof.LibConcatMiddle

noncomputable section

open scoped BigOperators

namespace Cert.ReferenceIdeal.RefEmbed

open Idealize.ShloMosaic Idealize.ShloMosaic.ValueIdx Cert.ReferenceIdeal Cert.ReferenceIdeal.Read Cert.PatchEmbed

/-- The reference's result is the patch embedding of its patches, weight, bias, class token and positional table. -/
theorem result_eq (x0 : (⟨S128x3x224x224, .f32⟩ : BufTy).Contents (Elt Ideal)) (x1 : (⟨S768x768, .f32⟩ : BufTy).Contents (Elt Ideal))
    (x2 : (⟨S768, .f32⟩ : BufTy).Contents (Elt Ideal)) (x3 : (⟨S1x768, .f32⟩ : BufTy).Contents (Elt Ideal))
    (x4 : (⟨S197x768, .f32⟩ : BufTy).Contents (Elt Ideal)) :
    val_main_v12 (F := Ideal) x0 x1 x2 x3 x4 = embed (val_main_v2 (F := Ideal) x0) x1 x2 x3 x4 := by
  funext i
  obtain ⟨n, r, h, rfl⟩ : ∃ (n : Fin 128) (r : Fin 197) (h : Fin 768), i = ix3 n r h := ⟨i 0, i 1, i 2, eq_ix3 i⟩
  rw [embed_ix3]
  -- the positional table is spread over the images: entry (n, r, h) of the spread is pos[r, h]
  have epos : val_main_v11 (F := Ideal) x4 (ix3 n r h) = x4 (ix2 r h) :=
    (val_main_v11_apply x4 _).trans ((val_main_v10_apply x4 _).trans (congrArg x4 (funext fun a => Fin.ext (by
      match a with
      | ⟨0, _⟩ => rfl
      | ⟨1, _⟩ => rfl))))
  refine (val_main_v12_apply x0 x1 x2 x3 x4 (ix3 n r h)).trans ?_
  show val_main_v9 (F := Ideal) x0 x1 x2 x3 (ix3 n r h) + val_main_v11 (F := Ideal) x4 (ix3 n r h) = _
  rw [epos]
  unfold val_main_v9
  by_cases hr : r.val = 0
  · -- the class row: the joined array's row 0 is the class token spread over the images
    rw [embedAt_class _ _ _ _ _ n r h hr]
    unfold classEntry
    refine congrArg₂ (· + ·) ?_ ?_
    · refine (Cert.LibConcatMiddle.concat_middle_left _ _ _ n r h (0 : Fin 1) hr.symm).trans ?_
      refine (val_main_v8_apply x3 _).trans ((val_main_v7_apply x3 _).trans (congrArg x3 ?_))
      exact funext fun a => Fin.ext (by
        match a with
        | ⟨0, _⟩ => rfl
        | ⟨1, _⟩ => rfl)
    · exact congrArg x4 (funext fun a => Fin.ext (by
        match a with
        | ⟨0, _⟩ => exact hr
        | ⟨1, _⟩ => rfl))
  · -- a patch row: the joined array's row p + 1 is the linear layer's row p
    obtain ⟨p, hp⟩ : ∃ p : Fin 196, p.val + 1 = r.val := ⟨⟨r.val - 1, by omega⟩, by show r.val - 1 + 1 = r.val; omega⟩
    rw [embedAt_patch _ _ _ _ _ n r h p hp]
    unfold token
    refine congrArg₂ (· + ·) ?_ ?_
    · refine (Cert.LibConcatMiddle.concat_middle_right _ _ _ n r h p hp).trans ?_
      refine (val_main_v6_apply x0 x1 x2 _).trans ?_
      show val_main_v3 (F := Ideal) x0 x1 (ix3 n p h) + val_main_v5 (F := Ideal) x2 (ix3 n p h) = _
      refine congrArg₂ (· + ·) ?_ ?_
      · refine (val_main_v3_apply x0 x1 _).trans (Finset.sum_congr rfl fun k _ => congrArg₂ (· * ·) (congrArg _ ?_) (congrArg x1 ?_))
        · exact funext fun a => Fin.ext (by
            match a with
            | ⟨0, _⟩ => rfl
            | ⟨1, _⟩ => rfl
            | ⟨2, _⟩ => rfl)
        · exact funext fun a => Fin.ext (by
            match a with
            | ⟨0, _⟩ => rfl
            | ⟨1, _⟩ => rfl)
      · refine (val_main_v5_apply x2 _).trans ((val_main_v4_apply x2 _).trans (congrArg x2 ?_))
        exact funext fun a => Fin.ext (by
          match a with
          | ⟨0, _⟩ => rfl)
    · exact congrArg x4 (funext fun a => Fin.ext (by
        match a with
        | ⟨0, _⟩ => exact hp.symm
        | ⟨1, _⟩ => rfl))

end Cert.ReferenceIdeal.RefEmbed

end
-- ==== Proof.lean ====
/-
  A vision transformer's patch-embedding layer: a kernel that embeds one image's 196 patches per grid point,
  against the plain reference.

  Both programs cut the image batch into 16 × 16 patches P (the same three layout operations), and both return,
  for each of 128 images, 197 rows of 768 features: row 0 the class token plus the positional table's row 0, row
  p + 1 the embedding of patch p, ((Σ_k P[n, p, k] · W[h, k]) + b[h]) + pos[p + 1, h]. The kernel's program
  transposes the weight and takes the products against Wᵀ[k, h] on the matrix unit, one image per grid point, adds
  the bias row and the table's rows 1 … 196 inside the body, and joins the class row in front afterwards; the
  reference contracts P against W directly, joins the class token in front, and adds the whole table last. At the
  ideal values a change of float format is the identity and a matrix product into a zero accumulator is the plain
  sum, so entry by entry the two are the same sums and the same two additions in the same grouping: no law of the
  extended reals beyond reading each operation at an index is used, and finiteness of the inputs is never needed.

  Every weakly fair execution of each of the three programs terminates without a fault and leaves the five argument
  arrays as they were. The idealized kernel differs from the kernel in no operation, only in the values its floats
  range over, so nothing is owed for passing from one to the other.
-/
import proofs.«167778_j21715354649842_1_alg».proof.Defs
import proofs.«167778_j21715354649842_1_alg».proof.Proof.Gen.Kernel
import proofs.«167778_j21715354649842_1_alg».proof.Proof.Gen.Kernel.Frame
import proofs.«167778_j21715354649842_1_alg».proof.Proof.Gen.KernelIdeal
import proofs.«167778_j21715354649842_1_alg».proof.Proof.Gen.KernelIdeal.Frame
import proofs.«167778_j21715354649842_1_alg».proof.Proof.Gen.ReferenceIdeal
import proofs.«167778_j21715354649842_1_alg».proof.Proof.Gen.ReferenceIdeal.Run
import proofs.«167778_j21715354649842_1_alg».proof.Proof.Gen.ReferenceIdeal.Read
import proofs.«167778_j21715354649842_1_alg».proof.Proof.Gen.Pre_finite_inputs
import proofs.«167778_j21715354649842_1_alg».proof.Proof.KernelValue
import proofs.«167778_j21715354649842_1_alg».proof.Proof.RefEmbed
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The two programs cut the image batch into patches by the same three operations. -/
theorem patches_eq (x : Cert.KernelIdeal.S128x3x224x224.Idx → EReal) :
    Cert.ReferenceIdeal.Read.val_main_v2 (F := Ideal) x = Cert.KernelIdeal.HostSide.patches x := rfl

/-- Both programs end with the patch embedding of arguments that agree. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v12_eq _ _ _ _ _).trans ?_
  rw [Cert.ReferenceIdeal.RefEmbed.result_eq, patches_eq, (hagree c).1, (hagree c).2.1, (hagree c).2.2.1,
    (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
